-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x524288 : Shape := ⟨2, ![2, 524288]⟩
abbrev S1x256 : Shape := ⟨2, ![1, 256]⟩
abbrev S1 : Shape := ⟨1, ![1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S16384x128 .f32) (main_arg1 : IVec S2x524288 32) (main_arg2 : FVec F S1x256 .f32) (main_arg3 : FVec F S1 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S1x256 .f32 := Host.absf main_arg2
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S16384x128 : Shape := ⟨2, ![16384, 128]⟩
abbrev S2x524288 : Shape := ⟨2, ![2, 524288]⟩
abbrev S1x256 : Shape := ⟨2, ![1, 256]⟩
abbrev S1 : Shape := ⟨1, ![1]⟩
abbrev S1x524288 : Shape := ⟨2, ![1, 524288]⟩
abbrev S524288 : Shape := ⟨1, ![524288]⟩
abbrev S1x128 : Shape := ⟨2, ![1, 128]⟩
abbrev S2x128 : Shape := ⟨2, ![2, 128]⟩
abbrev S16384x2 : Shape := ⟨2, ![16384, 2]⟩
abbrev S4096x128 : Shape := ⟨2, ![4096, 128]⟩
abbrev S4096x2 : Shape := ⟨2, ![4096, 2]⟩
abbrev S16384x1 : Shape := ⟨2, ![16384, 1]⟩
abbrev S16384 : Shape := ⟨1, ![16384]⟩
abbrev S_ : Shape := ⟨0, ![]⟩
abbrev S524288x1 : Shape := ⟨2, ![524288, 1]⟩
abbrev S16384x16384 : Shape := ⟨2, ![16384, 16384]⟩
abbrev S524288x2 : Shape := ⟨2, ![524288, 2]⟩

abbrev nBuf : Space → Nat
  | .hbm => 58
  | .vmem => 5
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S1x256, .f32⟩
  | .hbm, ⟨3, _⟩ => ⟨S1, .f32⟩
  | .hbm, ⟨4, _⟩ => ⟨S1x524288, .i32⟩
  | .hbm, ⟨5, _⟩ => ⟨S524288, .i32⟩
  | .hbm, ⟨6, _⟩ => ⟨S1x524288, .i32⟩
  | .hbm, ⟨7, _⟩ => ⟨S524288, .i32⟩
  | .hbm, ⟨8, _⟩ => ⟨S1x128, .f32⟩
  | .hbm, ⟨9, _⟩ => ⟨S1x128, .f32⟩
  | .hbm, ⟨10, _⟩ => ⟨S2x128, .f32⟩
  | .hbm, ⟨11, _⟩ => ⟨S16384x2, .f32⟩
  | .hbm, ⟨12, _⟩ => ⟨S16384x1, .f32⟩
  | .hbm, ⟨13, _⟩ => ⟨S16384, .f32⟩
  | .hbm, ⟨14, _⟩ => ⟨S16384x1, .f32⟩
  | .hbm, ⟨15, _⟩ => ⟨S16384, .f32⟩
  | .hbm, ⟨16, _⟩ => ⟨S_, .i32⟩
  | .hbm, ⟨17, _⟩ => ⟨S524288, .i32⟩
  | .hbm, ⟨18, _⟩ => ⟨S524288, .i1⟩
  | .hbm, ⟨19, _⟩ => ⟨S_, .i32⟩
  | .hbm, ⟨20, _⟩ => ⟨S524288, .i32⟩
  | .hbm, ⟨21, _⟩ => ⟨S524288, .i32⟩
  | .hbm, ⟨22, _⟩ => ⟨S524288, .i32⟩
  | .hbm, ⟨23, _⟩ => ⟨S524288x1, .i32⟩
  | .hbm, ⟨24, _⟩ => ⟨S524288, .f32⟩
  | .hbm, ⟨25, _⟩ => ⟨S_, .i32⟩
  | .hbm, ⟨26, _⟩ => ⟨S524288, .i32⟩
  | .hbm, ⟨27, _⟩ => ⟨S524288, .i1⟩
  | .hbm, ⟨28, _⟩ => ⟨S_, .i32⟩
  | .hbm, ⟨29, _⟩ => ⟨S524288, .i32⟩
  | .hbm, ⟨30, _⟩ => ⟨S524288, .i32⟩
  | .hbm, ⟨31, _⟩ => ⟨S524288, .i32⟩
  | .hbm, ⟨32, _⟩ => ⟨S524288x1, .i32⟩
  | .hbm, ⟨33, _⟩ => ⟨S524288, .f32⟩
  | .hbm, ⟨34, _⟩ => ⟨S524288, .f32⟩
  | .hbm, ⟨35, _⟩ => ⟨S_, .f32⟩
  | .hbm, ⟨36, _⟩ => ⟨S524288, .f32⟩
  | .hbm, ⟨37, _⟩ => ⟨S524288, .f32⟩
  | .hbm, ⟨38, _⟩ => ⟨S_, .f32⟩
  | .hbm, ⟨39, _⟩ => ⟨S16384x16384, .f32⟩
  | .hbm, ⟨40, _⟩ => ⟨S_, .i32⟩
  | .hbm, ⟨41, _⟩ => ⟨S524288, .i32⟩
  | .hbm, ⟨42, _⟩ => ⟨S524288, .i1⟩
  | .hbm, ⟨43, _⟩ => ⟨S_, .i32⟩
  | .hbm, ⟨44, _⟩ => ⟨S524288, .i32⟩
  | .hbm, ⟨45, _⟩ => ⟨S524288, .i32⟩
  | .hbm, ⟨46, _⟩ => ⟨S524288, .i32⟩
  | .hbm, ⟨47, _⟩ => ⟨S_, .i32⟩
  | .hbm, ⟨48, _⟩ => ⟨S524288, .i32⟩
  | .hbm, ⟨49, _⟩ => ⟨S524288, .i1⟩
  | .hbm, ⟨50, _⟩ => ⟨S_, .i32⟩
  | .hbm, ⟨51, _⟩ => ⟨S524288, .i32⟩
  | .hbm, ⟨52, _⟩ => ⟨S524288, .i32⟩
  | .hbm, ⟨53, _⟩ => ⟨S524288, .i32⟩
  | .hbm, ⟨54, _⟩ => ⟨S524288x1, .i32⟩
  | .hbm, ⟨55, _⟩ => ⟨S524288x1, .i32⟩
  | .hbm, ⟨56, _⟩ => ⟨S524288x2, .i32⟩
  | .hbm, ⟨57, _⟩ => ⟨S16384x16384, .f32⟩
  | .local _ .vmem, ⟨0, _⟩ => ⟨S4096x128, .f32⟩
  | .local _ .vmem, ⟨1, _⟩ => ⟨S4096x128, .f32⟩
  | .local _ .vmem, ⟨2, _⟩ => ⟨S2x128, .f32⟩
  | .local _ .vmem, ⟨3, _⟩ => ⟨S4096x2, .f32⟩
  | .local _ .vmem, ⟨4, _⟩ => ⟨S4096x2, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_1 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst : Ref sig .tc := ⟨.hbm, 38, rfl⟩
abbrev main_v30 : Ref sig .tc := ⟨.hbm, 39, rfl⟩
abbrev main_c_3 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_c_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  slices_S1x256_S1x128_0_0 : S1x256.Slices ![0, 0] S1x128
  slices_S1x256_S1x128_0_128 : S1x256.Slices ![0, 128] S1x128
  concatenates_S1x128_S1x128_S2x128_d0 : Shape.Concatenates [S1x128, S1x128] S2x128 0
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S4096x2_S4096x2_0_0 : ∀ a, (![0, 0] : Fin 2 → Nat) a + S4096x2.size a ≤ S4096x2.size a
  h_S4096x2 : 0 < S4096x2.numel
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S524288 : S_.BroadcastsInDim S524288 (![] : Fin 0 → Fin S524288.rank)
  bcast_S524288_S524288x1_0 : S524288.BroadcastsInDim S524288x1 (![0] : Fin 1 → Fin S524288x1.rank)
  shapeCasts_S1_S_ : S1.ShapeCasts S_
  bcast_S_S16384x16384 : S_.BroadcastsInDim S16384x16384 (![] : Fin 0 → Fin S16384x16384.rank)
  concatenates_S524288x1_S524288x1_S524288x2_d1 : Shape.Concatenates [S524288x1, S524288x1] S524288x2 1
  dot_S4096x128_S2x128_S4096x2_1_1_0_0_n_n_wf : DotDims.WF S4096x128 S2x128 S4096x2 [1] [1] [0] [0] [] []
  gather_S16384_S524288x1_S524288_n_0_n_n_0_1_1_wf : GatherDims.WF S16384 S524288x1 S524288 [] [0] [] [0] [] 1 ![1]
  scatter_S16384x16384_S524288x2_S524288_n_01_01_1_wf : ScatterDims.WF S16384x16384 S524288x2 S524288 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S16384x128.size a
  hwx0_0 : ∀ i : grid0.Coords, EltTy.bits .f32 = 32 ∨ (Rect.block (s := S16384x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x2.size a ≤ S16384x2.size a
  hwx0_2 : ∀ i : grid0.Coords, EltTy.bits .f32 = 32 ∨ (Rect.block (s := S16384x2) S4096x2.size (cc0_transform_2 i) (hinb0_2 i)).WholeWords (EltTy.packing .f32)

variable [Facts₀]

def dot_S4096x128_S2x128_S4096x2_1_1_0_0_n_n : DotDims S4096x128 S2x128 S4096x2 where
  lhsContracting := [1]
  rhsContracting := [1]
  lhsNonContracting := [0]
  rhsNonContracting := [0]
  lhsBatch := []
  rhsBatch := []
  wf := dot_S4096x128_S2x128_S4096x2_1_1_0_0_n_n_wf
def gather_S16384_S524288x1_S524288_n_0_n_n_0_1_1 : GatherDims S16384 S524288x1 S524288 where
  offsetDims := []
  collapsedSliceDims := [0]
  operandBatchingDims := []
  startIndicesBatchingDims := []
  startIndexMap := [0]
  indexVectorDim := 1
  sliceSizes := ![1]
  wf := gather_S16384_S524288x1_S524288_n_0_n_n_0_1_1_wf
def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4096x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S2x524288 : Shape := ⟨2, ![2, 524288]⟩
abbrev S1x256 : Shape := ⟨2, ![1, 256]⟩
abbrev S1 : Shape := ⟨1, ![1]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x128 : Shape := ⟨2, ![524288, 128]⟩
abbrev S524288x256 : Shape := ⟨2, ![524288, 256]⟩
abbrev S256x1 : Shape := ⟨2, ![256, 1]⟩
abbrev S1x1 : Shape := ⟨2, ![1, 1]⟩
abbrev S16384x16384 : Shape := ⟨2, ![16384, 16384]⟩
abbrev S524288x2 : Shape := ⟨2, ![524288, 2]⟩

abbrev nBuf : Space → Nat
  | .hbm => 57
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S1x256, .f32⟩
  | .hbm, ⟨3, _⟩ => ⟨S1, .f32⟩
  | .hbm, ⟨4, _⟩ => ⟨S1x524288, .i32⟩
  | .hbm, ⟨5, _⟩ => ⟨S524288, .i32⟩
  | .hbm, ⟨6, _⟩ => ⟨S_, .i32⟩
  | .hbm, ⟨7, _⟩ => ⟨S524288, .i32⟩
  | .hbm, ⟨8, _⟩ => ⟨S524288, .i1⟩
  | .hbm, ⟨9, _⟩ => ⟨S_, .i32⟩
  | .hbm, ⟨10, _⟩ => ⟨S524288, .i32⟩
  | .hbm, ⟨11, _⟩ => ⟨S524288, .i32⟩
  | .hbm, ⟨12, _⟩ => ⟨S524288, .i32⟩
  | .hbm, ⟨13, _⟩ => ⟨S524288x1, .i32⟩
  | .hbm, ⟨14, _⟩ => ⟨S524288x128, .f32⟩
  | .hbm, ⟨15, _⟩ => ⟨S1x524288, .i32⟩
  | .hbm, ⟨16, _⟩ => ⟨S524288, .i32⟩
  | .hbm, ⟨17, _⟩ => ⟨S_, .i32⟩
  | .hbm, ⟨18, _⟩ => ⟨S524288, .i32⟩
  | .hbm, ⟨19, _⟩ => ⟨S524288, .i1⟩
  | .hbm, ⟨20, _⟩ => ⟨S_, .i32⟩
  | .hbm, ⟨21, _⟩ => ⟨S524288, .i32⟩
  | .hbm, ⟨22, _⟩ => ⟨S524288, .i32⟩
  | .hbm, ⟨23, _⟩ => ⟨S524288, .i32⟩
  | .hbm, ⟨24, _⟩ => ⟨S524288x1, .i32⟩
  | .hbm, ⟨25, _⟩ => ⟨S524288x128, .f32⟩
  | .hbm, ⟨26, _⟩ => ⟨S524288x256, .f32⟩
  | .hbm, ⟨27, _⟩ => ⟨S256x1, .f32⟩
  | .hbm, ⟨28, _⟩ => ⟨S524288x1, .f32⟩
  | .hbm, ⟨29, _⟩ => ⟨S1x1, .f32⟩
  | .hbm, ⟨30, _⟩ => ⟨S524288x1, .f32⟩
  | .hbm, ⟨31, _⟩ => ⟨S524288x1, .f32⟩
  | .hbm, ⟨32, _⟩ => ⟨S524288, .f32⟩
  | .hbm, ⟨33, _⟩ => ⟨S_, .f32⟩
  | .hbm, ⟨34, _⟩ => ⟨S16384x16384, .f32⟩
  | .hbm, ⟨35, _⟩ => ⟨S1x524288, .i32⟩
  | .hbm, ⟨36, _⟩ => ⟨S524288, .i32⟩
  | .hbm, ⟨37, _⟩ => ⟨S1x524288, .i32⟩
  | .hbm, ⟨38, _⟩ => ⟨S524288, .i32⟩
  | .hbm, ⟨39, _⟩ => ⟨S_, .i32⟩
  | .hbm, ⟨40, _⟩ => ⟨S524288, .i32⟩
  | .hbm, ⟨41, _⟩ => ⟨S524288, .i1⟩
  | .hbm, ⟨42, _⟩ => ⟨S_, .i32⟩
  | .hbm, ⟨43, _⟩ => ⟨S524288, .i32⟩
  | .hbm, ⟨44, _⟩ => ⟨S524288, .i32⟩
  | .hbm, ⟨45, _⟩ => ⟨S524288, .i32⟩
  | .hbm, ⟨46, _⟩ => ⟨S_, .i32⟩
  | .hbm, ⟨47, _⟩ => ⟨S524288, .i32⟩
  | .hbm, ⟨48, _⟩ => ⟨S524288, .i1⟩
  | .hbm, ⟨49, _⟩ => ⟨S_, .i32⟩
  | .hbm, ⟨50, _⟩ => ⟨S524288, .i32⟩
  | .hbm, ⟨51, _⟩ => ⟨S524288, .i32⟩
  | .hbm, ⟨52, _⟩ => ⟨S524288, .i32⟩
  | .hbm, ⟨53, _⟩ => ⟨S524288x1, .i32⟩
  | .hbm, ⟨54, _⟩ => ⟨S524288x1, .i32⟩
  | .hbm, ⟨55, _⟩ => ⟨S524288x2, .i32⟩
  | .hbm, ⟨56, _⟩ => ⟨S16384x16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  slices_S2x524288_S1x524288_1_0 : S2x524288.Slices ![1, 0] S1x524288
  concatenates_S524288x128_S524288x128_S524288x256_d1 : Shape.Concatenates [S524288x128, S524288x128] S524288x256 1
  transposes_S1x256_S256x1_1_0 : S1x256.Transposes [1, 0] S256x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  shapeCasts_S524288x1_S524288 : S524288x1.ShapeCasts S524288
  bcast_S_S16384x16384 : S_.BroadcastsInDim S16384x16384 (![] : Fin 0 → Fin S16384x16384.rank)
  concatenates_S524288x1_S524288x1_S524288x2_d1 : Shape.Concatenates [S524288x1, S524288x1] S524288x2 1
  gather_S16384x128_S524288x1_S524288x128_1_0_n_n_0_1_1128_wf : GatherDims.WF S16384x128 S524288x1 S524288x128 [1] [0] [] [0] [] 1 ![1, 128]
  dot_S524288x256_S256x1_S524288x1_1_0_0_1_n_n_wf : DotDims.WF S524288x256 S256x1 S524288x1 [1] [0] [0] [1] [] []
  scatter_S16384x16384_S524288x2_S524288_n_01_01_1_wf : ScatterDims.WF S16384x16384 S524288x2 S524288 [] [0, 1] [0, 1] 1

variable [Facts₀]

def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def dot_S524288x256_S256x1_S524288x1_1_0_0_1_n_n : DotDims S524288x256 S256x1 S524288x1 where
  lhsContracting := [1]
  rhsContracting := [0]
  lhsNonContracting := [0]
  rhsNonContracting := [1]
  lhsBatch := []
  rhsBatch := []
  wf := dot_S524288x256_S256x1_S524288x1_1_0_0_1_n_n_wf
def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf

class Facts : Prop extends Facts₀ where

variable [Facts]
-- ==== Proof.LibDotRows.lean ====
/-
  A matrix times the transpose of a matrix, read at an entry, on the extended reals.

  For the dimension numbers "rows x contraction times columns x contraction" (`DotDims.transposedRhs M K N`: the left
  operand [M, K] and the right operand [N, K] both contracted on their second axis, no batch axis: the product of the
  left operand with the transpose of the right one, as a linear layer `x @ W.T` writes it), both a `tpu.matmul` into
  the zero accumulator and the host's `dot_general` are, at an output entry (r, c), the plain sum

      sum over k < K of  l (r, k) * w (c, k)

  of products of extended reals: no rounding, no chunking and no accumulator are left. Nothing is assumed finite: the
  statement is about one and the same finite sum of products, only re-indexed from the contraction's own index type
  to `Fin K`. Generic in the three extents, so one statement serves a block of rows against a block of rows and the
  whole matrices. The twin of the plain product (left [M, K], right [K, N]) for a transposed right operand.
-/
import Idealize.ShloMosaic.PureOps.Ideal.Laws
import Idealize.ShloMosaic.Lib.ValueIdx

noncomputable section

namespace DotRows

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ =>
    show ((DotDims.transposedRhs M K N).lhsIdx j _ 0).val = (j 0).val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ =>
    exact ((DotDims.transposedRhs M K N).lhsIdx_val_of_single rfl j _).trans hk

/-- The right operand's index at output entry `j` and contraction position `k` is (column of `j`, `k`): the right
    operand is read along its own row, the row the output's column names. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ =>
    show ((DotDims.transposedRhs M K N).rhsIdx j _ 0).val = (j 1).val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ =>
    exact ((DotDims.transposedRhs M K N).rhsIdx_val_of_single rfl j _).trans hk

/-- The contraction's sum, over its own index type, is the sum over `k < K` of `l (row, k) * w (column, k)`. -/
theorem sum_eq (l : (⟨2, ![M, K]⟩ : Shape).Idx → EReal) (w : (⟨2, ![N, K]⟩ : Shape).Idx → EReal)
    (j : (⟨2, ![M, N]⟩ : Shape).Idx) :
    ∑ q : (DotDims.transposedRhs M K N).contr.Idx,
        l ((DotDims.transposedRhs M K N).lhsIdx j q) * w ((DotDims.transposedRhs M K N).rhsIdx j q)
      = ∑ k : Fin K, l (ix2 (j 0) k) * w (ix2 (j 1) k) := by
  rw [← Equiv.sum_comp (contrEquiv1 (DotDims.transposedRhs M K N) K rfl rfl).symm]
  refine Finset.sum_congr rfl fun k _ => ?_
  rw [lhsIdx_eq, rhsIdx_eq]
  rfl

/-- A `tpu.matmul` into the zero accumulator, at an entry: the plain sum of products along the two rows. -/
theorem matmul_zero_apply {φ₁ φ₂ : FTy} (prec : Option ContractPrecision)
    (l : FVec Ideal ⟨2, ![M, K]⟩ φ₁) (w : FVec Ideal ⟨2, ![N, K]⟩ φ₂) (j : (⟨2, ![M, N]⟩ : Shape).Idx) :
    FloatOps.matmul (DotDims.transposedRhs M K N) prec l w (constant ⟨2, ![M, N]⟩ .f32 0x00000000#32) j
      = ∑ k : Fin K, (l (ix2 (j 0) k) : EReal) * w (ix2 (j 1) k) :=
  (Ideal.matmul_constant_zero_apply (DotDims.transposedRhs M K N) prec l w j).trans (sum_eq M K N l w j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (w : FVec Ideal ⟨2, ![N, K]⟩ φ₂) (j : (⟨2, ![M, N]⟩ : Shape).Idx) :
    FloatOps.dotGeneral (DotDims.transposedRhs M K N) prec sched l w j
      = ∑ k : Fin K, (l (ix2 (j 0) k) : EReal) * w (ix2 (j 1) k) :=
  (Ideal.dotGeneral_apply (DotDims.transposedRhs M K N) prec sched l w j).trans (sum_eq M K N l w j)

end DotRows

end
-- ==== Proof.NodeScores.lean ====
/-
  The table of node scores the kernel's region leaves.

  The region multiplies the node table x : [16384, 128] by the two stacked weight rows w : [2, 128], both contracted
  along their second axis, into s : [16384, 2]:

      s (n, j) = sum over k < 128 of x (n, k) * w (j, k).

  The grid has four points; point t takes rows 4096 t … 4096 t + 4095 of x, all of w, and writes rows
  4096 t … 4096 t + 4095 of s. The casts to the narrower float format are the identity on the extended reals and the
  product into the zero accumulator is the plain sum, so a point's block is the restriction of `scores` to its rows;
  the four blocks tile the table, and the table after the region is `scores` of the arrays as the region finds them.
-/
import proofs.«144400_j29703993819993_2_alg».proof.Proof.Gen.KernelIdeal.Frame
import proofs.«144400_j29703993819993_2_alg».proof.Proof.LibDotRows
import Idealize.ShloMosaic.Lib.Pipeline.Value
import Idealize.ShloMosaic.Lib.ValueIdx

set_option maxRecDepth 16384

noncomputable section

namespace Cert.KernelIdeal.NodeScores

open Cert.KernelIdeal Cert.KernelIdeal.Gen
open Idealize.ShloMosaic Idealize.ShloMosaic.TcCoe Idealize.ShloMosaic.ValueIdx Idealize.SL.Sem
open Idealize.ShloMosaic.Pipeline (Dat)

/-- The node scores: row n of the table against weight row j. -/
def scores (x : S16384x128.Idx → EReal) (w : S2x128.Idx → EReal) : S16384x2.Idx → EReal :=
  fun j => ∑ k : Fin 128, x (ix2 (j 0) k) * w (ix2 (j 1) k)

/-- The body's product at an entry: the format changes and the same-shape cast drop out, and the product into the
    zero accumulator is the plain sum along the two rows. -/
theorem pay_apply (x0 : Vec Ideal S4096x128 .f32) (x1 : Vec Ideal S2x128 .f32) (j : S4096x2.Idx) :
    k0_pay1 (F := Ideal) x0 x1 j = ∑ k : Fin 128, (x0 (ix2 (j 0) k) : EReal) * x1 (ix2 (j 1) k) := by
  have hw : shapeCast S2x128 x1 shapeCasts_S2x128_S2x128 = x1 := shapeCast_self x1 _
  unfold k0_pay1
  refine (DotRows.matmul_zero_apply 4096 128 2 none
    (truncf .bf16 x0 bitsLt_bf16_f32) (truncf .bf16 (shapeCast S2x128 x1 shapeCasts_S2x128_S2x128) bitsLt_bf16_f32) j).trans ?_
  rw [hw]
  rfl

/-! ## From the four blocks to the table -/

variable (m : (ℓ : Loc nD τ sig) → Buf (Elt Ideal) ℓ)

theorem offsets_zero : (![0, 0] : Fin 2 → Nat) = fun _ => 0 := funext fun a => by fin_cases a <;> rfl

/-- The index maps, decided over the four points: the node table's block moves with the output's along the rows and
    sits at column block 0; the weight rows are always block (0, 0); the output's column block is 0 and its row block
    is at most 3. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 3 :=
  (by decide +kernel : ∀ t : Fin grid0.N, _)

/-- Every row block of the output is some point's. -/
theorem row_block_onto : ∀ q : Fin 4, ∃ t : Fin cfg0.N, win0_2.index t = ![q.val, 0] :=
  (by decide +kernel : ∀ q : Fin 4, ∃ t : Fin grid0.N, win0_2.index t = ![q.val, 0])

/-- What point `t` writes back is block `t` of the node scores of the arrays as the region finds them. -/
theorem flushed_eq (c : Dev nD) (t : Fin cfg0.N) :
    (dats m 0 c).flushed 2 t
      = ((cfg0.win 2).blk t).view.read (Elt Ideal) (scores (V m c main_arg0) (V m c main_v6)) := by
  show (cfg0.win 2).cut (grid0.coords t) ((dats m 0 c).after 2 t) = _
  rw [after0_2]
  unfold out0_2
  rw [View.canon_unit_zero offsets_zero]
  simp only [View.ld_unit_zero (S := S4096x128) offsets_zero, View.ld_unit_zero (S := S2x128) offsets_zero]
  obtain ⟨e0, e1, e2, e3, e4, e5⟩ := block_indices t
  funext j
  refine (pay_apply (iblk m c 0 t) (iblk m c 1 t) j).trans ?_
  show _ = scores (V m c main_arg0) (V m c main_v6) (((cfg0.win 2).blk t).view.emb j)
  unfold scores
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 128 + 1 * k.val = k.val; omega
  have h1 : ((cfg0.win 1).blk t).view.emb (ix2 (j 1) k) = ix2 ((((cfg0.win 2).blk t).view.emb j) 1) k := by
    funext a; apply Fin.ext
    match a with
    | ⟨0, _⟩ => show win0_1.index t (0 : Fin 2) * 2 + 1 * (j 1).val = win0_2.index t (1 : Fin 2) * 2 + 1 * (j 1).val; omega
    | ⟨1, _⟩ => show win0_1.index t (1 : Fin 2) * 128 + 1 * k.val = k.val; omega
  have a0 : iblk m c 0 t (ix2 (j 0) k) = V m c main_arg0 (ix2 ((((cfg0.win 2).blk t).view.emb j) 0) k) :=
    congrArg (V m c main_arg0) h0
  have a1 : iblk m c 1 t (ix2 (j 1) k) = V m c main_v6 (ix2 ((((cfg0.win 2).blk t).view.emb j) 1) k) :=
    congrArg (V m c main_v6) h1
  rw [a0, a1]

/-- An index of the table is in point `t`'s block iff each coordinate is in the block's range on its axis. -/
theorem mem_blk (t : Fin cfg0.N) (i : S16384x2.Idx) :
    i ∈ ((cfg0.win 2).blk t).view.set ↔ ∀ a : Fin 2, win0_2.index t a * S4096x2.size a ≤ (i a).val
      ∧ (i a).val < win0_2.index t a * S4096x2.size a + S4096x2.size a := by
  show i ∈ ((View.whole main_v7).slice (win0_2.rect t)).set ↔ _
  rw [View.set_slice_whole, Rect.mem_set_unit]
  exact Iff.rfl

/-- Every entry of the table is written back by the point of its row block. -/
theorem covered (i : S16384x2.Idx) :
    ∃ t : Fin cfg0.N, (cfg0.win 2).flush t = true ∧ i ∈ ((cfg0.win 2).blk t).view.set := by
  have hi0 : (i 0).val < 16384 := (i 0).isLt
  have hi1 : (i 1).val < 2 := (i 1).isLt
  obtain ⟨t, ht⟩ := row_block_onto ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 2 ≤ (i 1).val ∧ (i 1).val < win0_2.index t (1 : Fin 2) * 2 + 2; omega

/-- The table after the region: the node scores of the arrays as the region finds them. -/
theorem final (c : Dev nD) :
    (dats m 0 c).arrAt 2 cfg0.N = scores (V m c main_arg0) (V m c main_v6) :=
  (dats m 0 c).arrAt_eq_of_cover 2 _ (fun t _ => flushed_eq m c t) covered

/-- The stacked weight rows, as the region finds them: the first and the last 128 columns of the weight row, one
    above the other. -/
theorem stacked_weights (c : Dev nD) :
    (V m c main_v6 : S2x128.Idx → EReal)
      = concatenate S2x128 0
          [⟨S1x128, extractStridedSlice S1x128 ![0, 0] (m ((c.tc : Thread nD τ).loc main_arg2)) slices_S1x256_S1x128_0_0⟩,
           ⟨S1x128, extractStridedSlice S1x128 ![0, 128] (m ((c.tc : Thread nD τ).loc main_arg2)) slices_S1x256_S1x128_0_128⟩]
          concatenates_S1x128_S1x128_S2x128_d0 := by
  show StableHlo.after hostOps0 (fun b => m (c, b)) (Proc.devRef .tc main_v6) = _
  after_results

end Cert.KernelIdeal.NodeScores

end
-- ==== Proof.KernelTail.lean ====
/-
  The lines after the region: from the table of node scores to the adjacency matrix.

  After the region the program takes the two columns of the node-score table, reads each at the edges' end points
  (a gather by a column of indices: the first column at the first end points, the second at the second), adds the two
  and the bias, and adds every edge's value into the zero matrix at (first end point, second end point). Here these
  lines are one function `adjacency` of the score table, the two rows of end points and the bias — first over an
  arbitrary valuation of the buffers, then with the region's table and the host-computed rows put in.
-/
import proofs.«144400_j29703993819993_2_alg».proof.Proof.NodeScores
import Idealize.ShloMosaic.Lib.StableHlo.Run

set_option maxRecDepth 16384

noncomputable section

namespace Cert.KernelIdeal.Tail

open Cert.KernelIdeal Cert.KernelIdeal.Gen Cert.KernelIdeal.NodeScores
open Idealize.ShloMosaic Idealize.ShloMosaic.TcCoe Idealize.ShloMosaic.ValueIdx Idealize.SL.Sem Idealize.ShloMosaic.StableHlo

/-- The negative-index wrap of a vector of indices: an index below zero has 16384 added. -/
def wrap (v : IVec S524288 32) : IVec S524288 32 :=
  select (cmpi .slt v (broadcastInDim S524288 ![] bcast_S_S524288 (constantI S_ 32 0#32)))
    (addi v (broadcastInDim S524288 ![] bcast_S_S524288 (constantI S_ 32 16384#32))) v

/-- The wrapped indices as a column [524288, 1]. -/
def column (v : IVec S524288 32) : IVec S524288x1 32 :=
  broadcastInDim S524288x1 ![0] bcast_S524288_S524288x1_0 (wrap v)

/-- The edges' first end points: row 0 of the index array. -/
def ends0 (x1 : IVec S2x524288 32) : IVec S524288 32 :=
  shapeCast S524288 (extractStridedSlice S1x524288 ![0, 0] x1 slices_S2x524288_S1x524288_0_0) shapeCasts_S1x524288_S524288

/-- The edges' second end points: row 1 of the index array. -/
def ends1 (x1 : IVec S2x524288 32) : IVec S524288 32 :=
  shapeCast S524288 (extractStridedSlice S1x524288 ![1, 0] x1 slices_S2x524288_S1x524288_1_0) shapeCasts_S1x524288_S524288

/-- Column 0 of the score table as a vector. -/
def scoreCol0 (s : FVec Ideal S16384x2 .f32) : FVec Ideal S16384 .f32 :=
  shapeCast S16384 (extractStridedSlice S16384x1 ![0, 0] s slices_S16384x2_S16384x1_0_0) shapeCasts_S16384x1_S16384

/-- Column 1 of the score table as a vector. -/
def scoreCol1 (s : FVec Ideal S16384x2 .f32) : FVec Ideal S16384 .f32 :=
  shapeCast S16384 (extractStridedSlice S16384x1 ![0, 1] s slices_S16384x2_S16384x1_0_1) shapeCasts_S16384x1_S16384

/-- The edges' values: column 0 read at the first index column, plus column 1 read at the second, plus the bias. -/
def edgeValues (s : FVec Ideal S16384x2 .f32) (c0 c1 : IVec S524288x1 32) (b : FVec Ideal S1 .f32) : FVec Ideal S524288 .f32 :=
  addf (addf (Host.gather gather_S16384_S524288x1_S524288_n_0_n_n_0_1_1 (scoreCol0 s) c0)
      (Host.gather gather_S16384_S524288x1_S524288_n_0_n_n_0_1_1 (scoreCol1 s) c1))
    (broadcastInDim S524288 ![] bcast_S_S524288 (shapeCast S_ b shapeCasts_S1_S_))

/-- The zero matrix the edges' values are added into. -/
def zeros : FVec Ideal S16384x16384 .f32 :=
  broadcastInDim S16384x16384 ![] bcast_S_S16384x16384 (constant S_ .f32 0x00000000#32)

/-- Where each edge's value lands: (first end point, second end point), both wrapped. -/
def landing (v0 v1 : IVec S524288 32) : IVec S524288x2 32 :=
  concatenate S524288x2 1 [⟨S524288x1, column v0⟩, ⟨S524288x1, column v1⟩] concatenates_S524288x1_S524288x1_S524288x2_d1

/-- The adjacency matrix: every edge's value added into the zero matrix where the edge lands. -/
def adjacency (s : FVec Ideal S16384x2 .f32) (v0 v1 : IVec S524288 32) (b : FVec Ideal S1 .f32) : FVec Ideal S16384x16384 .f32 :=
  Host.scatterAdd scatter_S16384x16384_S524288x2_S524288_n_01_01_1 zeros (landing v0 v1)
    (edgeValues s (column v0) (column v1) b)

set_option maxHeartbeats 2000000 in
/-- The lines after the region, over any valuation of the buffers: the result is `adjacency` of the score table's,
    the two end-point rows' and the bias's contents. -/
theorem tail_of (W : Valuation τ sig (Elt Ideal)) :
    StableHlo.after (hostOps1 (F := Ideal)) W (Proc.devRef .tc main_v44)
      = adjacency (W (Proc.devRef .tc main_v7)) (W (Proc.devRef .tc main_v1)) (W (Proc.devRef .tc main_v3))
          (W (Proc.devRef .tc main_arg3)) := by
  after_results_simp
  rfl

end Cert.KernelIdeal.Tail

end
-- ==== Proof.LibGatherRows.lean ====
/-
  `stablehlo.gather` by a COLUMN of start indices, read at an index.  No program is imported.

  What `x[idx]` lowers to when the integer array `idx` of `M` indices is passed as an `[M, 1]` array (index vector
  axis 1, one component per start index):

  * `gather_flat_apply`: of a flat operand `x : [N]`, result `[M]` — element `p` is `x` at the start index `idx[p, 0]`
    read as a signed integer and clamped into `[0, N − 1]`;
  * `gather_rows_apply`: of a table of rows `x : [A, C]`, result `[M, C]` (whole rows: slice sizes `[1, C]`, axis 0
    collapsed, axis 1 the result's offset axis) — element `(p, k)` is `x` at row `idx[p, 0]`, read signed and clamped
    into `[0, A − 1]`, and column `k`.

  The dimension numbers are literal records with an arbitrary proof of their conditions, so a program's own record
  with the same fields is one of these by `rfl`.
-/
import Idealize.ShloMosaic.Lib.ValueIdx

noncomputable section

namespace Cert.Moe

open Idealize.ShloMosaic Idealize.ShloMosaic.ValueIdx

section
variable {α : Type}

/-- Dimension numbers of a flat gather by a column of indices: operand `[N]`, start indices `[M, 1]`, result `[M]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `p`: the operand at the start index `idx[p, 0]`, read signed and clamped into
    `[0, N − 1]`. -/
theorem gather_flat_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (p : Fin M) :
    Host.gather (flatDims N M wf) x idx (ix1 p) = x (ix1 ⟨min (idx (ix2 p 0)).toInt.toNat (N - 1), by omega⟩) := by
  unfold Host.gather
  refine congrArg x ?_
  funext a
  obtain rfl : a = 0 := Subsingleton.elim _ _
  refine Fin.ext ?_
  show (flatDims N M wf).start (ix1 p) idx 0 + (flatDims N M wf).batchCoord (ix1 p) 0
    + (flatDims N M wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx (ix1 p) ⟨List.idxOf (0 : Fin 1) (flatDims N M wf).startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

/-- Dimension numbers of a gather of whole rows by a column of indices: operand `[A, C]`, start indices `[M, 1]`,
    result `[M, C]`. -/
abbrev rowDims (A C M : Nat) (wf : GatherDims.WF ⟨2, ![A, C]⟩ ⟨2, ![M, 1]⟩ ⟨2, ![M, C]⟩ [1] [0] [] [0] [] 1 ![1, C]) :
    GatherDims ⟨2, ![A, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

set_option maxHeartbeats 50000 in
/-- THE ROW GATHER READ AT `(p, k)`: the operand at the row `idx[p, 0]`, read signed and clamped into `[0, A − 1]`,
    and column `k`. -/
theorem gather_rows_apply {A C M w : Nat} (hA : 0 < A)
    (wf : GatherDims.WF ⟨2, ![A, C]⟩ ⟨2, ![M, 1]⟩ ⟨2, ![M, C]⟩ [1] [0] [] [0] [] 1 ![1, C])
    (x : (⟨2, ![A, C]⟩ : Shape).Idx → α) (idx : IVec ⟨2, ![M, 1]⟩ w) (p : Fin M) (k : Fin C) :
    Host.gather (rowDims A C M wf) x idx (ix2 p k)
      = x (ix2 ⟨min (idx (ix2 p 0)).toInt.toNat (A - 1), by omega⟩ k) := by
  unfold Host.gather
  refine congrArg x ?_
  funext a
  refine Fin.ext ?_
  match a with
  | ⟨0, _⟩ =>
    show (rowDims A C M wf).start (ix2 p k) idx 0 + (rowDims A C M wf).batchCoord (ix2 p k) 0
      + (rowDims A C M wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims A C M wf).startIndexMap from List.mem_singleton.mpr rfl)]
    have hsi : (rowDims A C M wf).siIdx (ix2 p k) ⟨List.idxOf (0 : Fin 2) (rowDims A C M wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims A C M wf).start (ix2 p k) idx 1 + (rowDims A C M wf).batchCoord (ix2 p k) 1
      + (rowDims A C M wf).offCoord (ix2 p k) 1 = k.val
    have hs : (rowDims A C M wf).start (ix2 p k) idx 1 = 0 := by
      unfold GatherDims.start
      rw [dif_neg (show (1 : Fin 2) ∉ (rowDims A C M wf).startIndexMap from
        (by decide : (1 : Fin 2) ∉ [(0 : Fin 2)]))]
    have ho : (rowDims A C M wf).offCoord (ix2 p k) 1 = k.val := by
      unfold GatherDims.offCoord
      rw [dif_pos (show (1 : Fin 2) ∈ (rowDims A C M wf).sKept from
        (GatherDims.mem_sKept _ _).mpr ⟨(by decide : (1 : Fin 2) ∉ [(0 : Fin 2)]), List.not_mem_nil⟩)]
      rfl
    rw [hs, ho, GatherDims.batchCoord_eq_zero _ _ _ List.not_mem_nil]
    omega

end

end Cert.Moe

end
-- ==== Proof.EdgeScore.lean ====
/-
  The score of one edge, and a sum over 256 positions as the sum of its two halves.

  An edge joins two nodes, r0 and r1. With the node table x : [16384, 128], one row of weights w : [1, 256] and a
  bias b, the edge's score is

      (sum over k < 128 of x (r0, k) * w (0, k))  +  (sum over k < 128 of x (r1, k) * w (0, 128 + k))  +  b :

  the first half of the weights meets the first node's row, the second half the second node's row. Written over the
  concatenated row (x (r0, ·), x (r1, ·)) : [256] it is one sum over 256 positions; `sum_halves` is the law that joins
  the two spellings. It regroups a finite sum in a commutative additive monoid and so holds on the extended reals
  whatever the entries are: nothing is assumed finite.
-/
import Idealize.ShloMosaic.PureOps.Ideal
import Idealize.ShloMosaic.Lib.ValueIdx

noncomputable section

namespace EdgeScore

open Idealize.ShloMosaic Idealize.ShloMosaic.ValueIdx

/-- A sum over 256 positions is the sum over the first 128 plus the sum over the last 128. -/
theorem sum_halves {M : Type} [AddCommMonoid M] (f : Fin 256 → M) :
    ∑ k : Fin 256, f k
      = (∑ k : Fin 128, f ⟨k.val, by omega⟩) + ∑ k : Fin 128, f ⟨128 + k.val, by omega⟩ :=
  Fin.sum_univ_add (a := 128) (b := 128) f

/-- The row of the node table that a column of index words names for edge `p`: the word read as a signed integer and
    clamped into [0, 16383] — what a gather by that column reads. -/
def rowOf (col : IVec ⟨2, ![524288, 1]⟩ 32) (p : Fin 524288) : Fin 16384 :=
  ⟨min (col (ix2 p 0)).toInt.toNat (16384 - 1), by omega⟩

/-- The score of the edge (r0, r1): the first node's row against the first 128 weights, plus the second node's row
    against the last 128 weights, plus the bias. -/
def edge (x : (⟨2, ![16384, 128]⟩ : Shape).Idx → EReal) (w : (⟨2, ![1, 256]⟩ : Shape).Idx → EReal) (b : EReal)
    (r0 r1 : Fin 16384) : EReal :=
  ((∑ k : Fin 128, x (ix2 r0 k) * w (ix2 0 ⟨k.val, by omega⟩))
    + ∑ k : Fin 128, x (ix2 r1 k) * w (ix2 0 ⟨128 + k.val, by omega⟩)) + b

end EdgeScore

end
-- ==== Proof.KernelEdge.lean ====
/-
  The kernel's value of one edge.

  After the region the kernel reads column 0 of the node-score table at the first end point's row, column 1 at the
  second's, and adds the two and the bias. With the score table the node scores of the node table x against the two
  stacked halves of the weight row w, column 0 at row r is the sum over k < 128 of x (r, k) * w (0, k) and column 1 at
  row r is the sum over k < 128 of x (r, k) * w (0, 128 + k): the value at edge p is the edge's score
  (`EdgeScore.edge`) at the rows the two index columns name.
-/
import proofs.«144400_j29703993819993_2_alg».proof.Proof.KernelTail
import proofs.«144400_j29703993819993_2_alg».proof.Proof.LibGatherRows
import proofs.«144400_j29703993819993_2_alg».proof.Proof.EdgeScore

noncomputable section

namespace Cert.KernelIdeal.EdgeRead

open Cert.KernelIdeal Cert.KernelIdeal.Gen Cert.KernelIdeal.NodeScores Cert.KernelIdeal.Tail
open Idealize.ShloMosaic Idealize.ShloMosaic.ValueIdx

/-- Column 0 of a score table at row r is the table's entry (r, 0). -/
theorem scoreCol0_apply (s : FVec Ideal S16384x2 .f32) (r : Fin 16384) : scoreCol0 s (ix1 r) = s (ix2 r 0) := by
  unfold scoreCol0
  refine (shapeCast_apply _ shapeCasts_S16384x1_S16384 (ix1 r) (ix2 r 0)
    (by rewrite [Shape.rowMajor_val_two, Shape.rowMajor_val_one]; show r.val * 1 + 0 = r.val; omega)).trans ?_
  exact extractStridedSlice_apply ![0, 0] s slices_S16384x2_S16384x1_0_0 (ix2 r 0) (ix2 r 0) (fun a => match a with
    | ⟨0, _⟩ => by show r.val = 0 + r.val; omega
    | ⟨1, _⟩ => by show 0 = 0 + 0; omega)

/-- Column 1 of a score table at row r is the table's entry (r, 1). -/
theorem scoreCol1_apply (s : FVec Ideal S16384x2 .f32) (r : Fin 16384) : scoreCol1 s (ix1 r) = s (ix2 r 1) := by
  unfold scoreCol1
  refine (shapeCast_apply _ shapeCasts_S16384x1_S16384 (ix1 r) (ix2 r 0)
    (by rewrite [Shape.rowMajor_val_two, Shape.rowMajor_val_one]; show r.val * 1 + 0 = r.val; omega)).trans ?_
  exact extractStridedSlice_apply ![0, 1] s slices_S16384x2_S16384x1_0_1 (ix2 r 0) (ix2 r 1) (fun a => match a with
    | ⟨0, _⟩ => by show r.val = 0 + r.val; omega
    | ⟨1, _⟩ => by show 1 = 1 + 0; omega)

/-- The bias spread over the edges, at any edge: the bias. -/
theorem bias_apply (b : FVec Ideal S1 .f32) (p : Fin 524288) :
    broadcastInDim S524288 ![] bcast_S_S524288 (shapeCast S_ b shapeCasts_S1_S_) (ix1 p) = b (ix1 0) := by
  refine (broadcastInDim_apply _ bcast_S_S524288 _ (ix1 p) ix0 (fun a => a.elim0)).trans ?_
  refine (shapeCast_dropUnit_apply ![] b shapeCasts_S1_S_ ix0).trans (congrArg b ?_)
  funext a
  match a with
  | ⟨0, _⟩ => rfl

/-- The stacked weight rows at (0, k): the weight row at column k. -/
theorem stacked_first (x2 : FVec Ideal S1x256 .f32) (k : Fin 128) :
    concatenate S2x128 0
        [⟨S1x128, extractStridedSlice S1x128 ![0, 0] x2 slices_S1x256_S1x128_0_0⟩,
         ⟨S1x128, extractStridedSlice S1x128 ![0, 128] x2 slices_S1x256_S1x128_0_128⟩]
        concatenates_S1x128_S1x128_S2x128_d0 (ix2 0 k)
      = x2 (ix2 0 ⟨k.val, by omega⟩) := by
  refine (concatenate_pair_apply_left (t := S2x128) (s₁ := S1x128) (s₂ := S1x128) (0 : Fin 2) _ _
    concatenates_S1x128_S1x128_S2x128_d0 (ix2 0 k : S2x128.Idx) rfl (ix2 0 k : S1x128.Idx) (fun b => ?_)).trans ?_
  · match b with
    | ⟨0, _⟩ => rfl
    | ⟨1, _⟩ => rfl
  · exact extractStridedSlice_apply ![0, 0] x2 slices_S1x256_S1x128_0_0 (ix2 0 k) (ix2 0 ⟨k.val, by omega⟩) (fun a => match a with
      | ⟨0, _⟩ => by show 0 = 0 + 0; omega
      | ⟨1, _⟩ => by show k.val = 0 + k.val; omega)

/-- The stacked weight rows at (1, k): the weight row at column 128 + k. -/
theorem stacked_second (x2 : FVec Ideal S1x256 .f32) (k : Fin 128) :
    concatenate S2x128 0
        [⟨S1x128, extractStridedSlice S1x128 ![0, 0] x2 slices_S1x256_S1x128_0_0⟩,
         ⟨S1x128, extractStridedSlice S1x128 ![0, 128] x2 slices_S1x256_S1x128_0_128⟩]
        concatenates_S1x128_S1x128_S2x128_d0 (ix2 1 k)
      = x2 (ix2 0 ⟨128 + k.val, by omega⟩) := by
  refine (concatenate_pair_apply_right (t := S2x128) (s₁ := S1x128) (s₂ := S1x128) (0 : Fin 2) _ _
    concatenates_S1x128_S1x128_S2x128_d0 (ix2 1 k : S2x128.Idx) rfl rfl (ix2 0 k : S1x128.Idx) (fun b hb => ?_) ?_).trans ?_
  · match b with
    | ⟨0, _⟩ => exact absurd rfl hb
    | ⟨1, _⟩ => rfl
  · show 0 + 1 = 1
    omega
  · exact extractStridedSlice_apply ![0, 128] x2 slices_S1x256_S1x128_0_128 (ix2 0 k) (ix2 0 ⟨128 + k.val, by omega⟩) (fun a => match a with
      | ⟨0, _⟩ => by show 0 = 0 + 0; omega
      | ⟨1, _⟩ => by show 128 + k.val = 128 + k.val; omega)

/-- The kernel's per-edge vector at edge p, with the score table the node scores of x against the stacked halves of
    the weight row: the edge's score at the rows the two index columns name. -/
theorem edge_apply (x0 : FVec Ideal S16384x128 .f32) (x2 : FVec Ideal S1x256 .f32) (c0 c1 : IVec S524288x1 32)
    (b : FVec Ideal S1 .f32) (p : Fin 524288) :
    edgeValues (scores x0 (concatenate S2x128 0
        [⟨S1x128, extractStridedSlice S1x128 ![0, 0] x2 slices_S1x256_S1x128_0_0⟩,
         ⟨S1x128, extractStridedSlice S1x128 ![0, 128] x2 slices_S1x256_S1x128_0_128⟩]
        concatenates_S1x128_S1x128_S2x128_d0)) c0 c1 b (ix1 p)
      = EdgeScore.edge x0 x2 (b (ix1 0)) (EdgeScore.rowOf c0 p) (EdgeScore.rowOf c1 p) := by
  unfold edgeValues EdgeScore.edge
  refine congrArg₂ (fun u v : EReal => u + v) (congrArg₂ (fun u v : EReal => u + v) ?_ ?_) (bias_apply b p)
  · refine (Cert.Moe.gather_flat_apply (N := 16384) (M := 524288) (by decide)
      Facts₀.gather_S16384_S524288x1_S524288_n_0_n_n_0_1_1_wf _ c0 p).trans ?_
    refine (scoreCol0_apply _ (EdgeScore.rowOf c0 p)).trans ?_
    unfold scores
    exact Finset.sum_congr rfl fun k _ => congrArg (fun v : EReal => x0 (ix2 (EdgeScore.rowOf c0 p) k) * v) (stacked_first x2 k)
  · refine (Cert.Moe.gather_flat_apply (N := 16384) (M := 524288) (by decide)
      Facts₀.gather_S16384_S524288x1_S524288_n_0_n_n_0_1_1_wf _ c1 p).trans ?_
    refine (scoreCol1_apply _ (EdgeScore.rowOf c1 p)).trans ?_
    unfold scores
    exact Finset.sum_congr rfl fun k _ => congrArg (fun v : EReal => x0 (ix2 (EdgeScore.rowOf c1 p) k) * v) (stacked_second x2 k)

end Cert.KernelIdeal.EdgeRead

end
-- ==== Proof.KernelRun.lean ====
/-
  The kernel's run, with its result named.

  When the region ends, the buffer of node scores holds `scores` of the node table and the stacked halves of the weight
  row, and every other buffer what the lines before the region left: the two rows of end points and the bias as
  launched. The lines after the region turn these into `adjacency`. So every execution ends with the result buffer at
  `adjacency (scores x w) (first end points) (second end points) bias` of the launch contents, and the arguments as
  they were.
-/
import proofs.«144400_j29703993819993_2_alg».proof.Proof.KernelTail

set_option maxRecDepth 16384

noncomputable section

namespace Cert.KernelIdeal.Run

open Cert.KernelIdeal Cert.KernelIdeal.Gen Cert.KernelIdeal.NodeScores Cert.KernelIdeal.Tail
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The stacked halves of a weight row: columns 0 … 127 above columns 128 … 255. -/
def stacked (x2 : FVec Ideal S1x256 .f32) : FVec Ideal S2x128 .f32 :=
  concatenate S2x128 0
    [⟨S1x128, extractStridedSlice S1x128 ![0, 0] x2 slices_S1x256_S1x128_0_0⟩,
     ⟨S1x128, extractStridedSlice S1x128 ![0, 128] x2 slices_S1x256_S1x128_0_128⟩]
    concatenates_S1x128_S1x128_S2x128_d0

/-- The buffers' contents when the region ends: the region's arrays as the run leaves them, every other buffer as the
    lines before the region left it. -/
def exitVal (c : Dev nD) : Valuation τ sig (Elt Ideal) :=
  Pipeline.withArrays spec0 c (V0 m c) (fun w => (dats m 0 c).arrAt w cfg0.N)

/-- At the region's exit the score buffer holds the node scores of the launch contents. -/
theorem exit_scores (c : Dev nD) :
    exitVal m c (Proc.devRef .tc main_v7)
      = scores (m ((c.tc : Thread nD τ).loc main_arg0)) (stacked (m ((c.tc : Thread nD τ).loc main_arg2))) := by
  unfold exitVal
  refine (Pipeline.withArrays_arr spec0 launch0.win.arr_inj c _ _ 2).trans ?_
  refine (final m c).trans ?_
  rw [V_main_arg0, stacked_weights]
  rfl

/-- The first end points, computed before the region, are still there at its exit. -/
theorem exit_ends0 (c : Dev nD) :
    exitVal m c (Proc.devRef .tc main_v1) = ends0 (m ((c.tc : Thread nD τ).loc main_arg1)) := by
  unfold exitVal
  rw [Pipeline.withArrays_of_ne spec0 c (V0 m c) _ main_v1 (by exact (by decide : ∀ w, Pipeline.arrRef spec0 w ≠ main_v1))]
  show StableHlo.after hostOps0 (fun b => m (c, b)) (Proc.devRef .tc main_v1) = _
  after_results
  rfl

/-- So are the second end points. -/
theorem exit_ends1 (c : Dev nD) :
    exitVal m c (Proc.devRef .tc main_v3) = ends1 (m ((c.tc : Thread nD τ).loc main_arg1)) := by
  unfold exitVal
  rw [Pipeline.withArrays_of_ne spec0 c (V0 m c) _ main_v3 (by exact (by decide : ∀ w, Pipeline.arrRef spec0 w ≠ main_v3))]
  show StableHlo.after hostOps0 (fun b => m (c, b)) (Proc.devRef .tc main_v3) = _
  after_results
  rfl

/-- The bias is as launched. -/
theorem exit_bias (c : Dev nD) :
    exitVal m c (Proc.devRef .tc main_arg3) = m ((c.tc : Thread nD τ).loc main_arg3) := by
  unfold exitVal
  rw [Pipeline.withArrays_of_ne spec0 c (V0 m c) _ main_arg3 (by exact (by decide : ∀ w, Pipeline.arrRef spec0 w ≠ main_arg3))]
  exact V_main_arg3 m c

/-- What the lines after the region leave in the result buffer. -/
theorem result_eq (c : Dev nD) :
    Pipeline.afterTail₀ cfgs (dats m) 0 (V0 m) [hostOps1] c main_v44
      = adjacency (scores (m ((c.tc : Thread nD τ).loc main_arg0)) (stacked (m ((c.tc : Thread nD τ).loc main_arg2))))
          (ends0 (m ((c.tc : Thread nD τ).loc main_arg1))) (ends1 (m ((c.tc : Thread nD τ).loc main_arg1)))
          (m ((c.tc : Thread nD τ).loc main_arg3)) := by
  unfold Pipeline.afterTail₀
  show StableHlo.after hostOps1 (exitVal m c) (Proc.devRef .tc main_v44) = _
  rw [tail_of, exit_scores, exit_ends0, exit_ends1, exit_bias]

/-- Every weakly fair execution terminates with the result buffer at the adjacency matrix of the launch contents and
    the arguments unchanged. -/
theorem run : θ_run defs (onTc (τ := τ) (main (F := Ideal))) ⟨m, fun _ => 0, ρ⟩ (fun r => ∀ c : Dev nD,
      r.2.mem ((c.tc : Thread nD τ).loc main_v44)
        = adjacency (scores (m ((c.tc : Thread nD τ).loc main_arg0)) (stacked (m ((c.tc : Thread nD τ).loc main_arg2))))
            (ends0 (m ((c.tc : Thread nD τ).loc main_arg1))) (ends1 (m ((c.tc : Thread nD τ).loc main_arg1)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v44 (Pipeline.mem_restRefs_of main_v44 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.ReferenceEdge.lean ====
/-
  The reference's value of one edge.

  The reference gathers the two end points' rows of the node table, lays them side by side as one row of 256, takes
  the product with the transposed weight row, adds the bias and flattens. Read at edge p this is the edge's score
  (`EdgeScore.edge`) at the rows its two index columns name: position k < 128 of the joined row is entry k of the first
  end point's row, position 128 + k is entry k of the second's, and the sum over the 256 positions is the sum of the
  two halves.
-/
import proofs.«144400_j29703993819993_2_alg».proof.Proof.Gen.ReferenceIdeal.Read
import proofs.«144400_j29703993819993_2_alg».proof.Proof.LibGatherRows
import proofs.«144400_j29703993819993_2_alg».proof.Proof.EdgeScore

noncomputable section

namespace Cert.ReferenceIdeal.EdgeRead

open Cert.ReferenceIdeal Cert.ReferenceIdeal.Gen Cert.ReferenceIdeal.Read
open Idealize.ShloMosaic Idealize.ShloMosaic.ValueIdx

variable (x0 : FVec Ideal S16384x128 .f32) (x1 : IVec S2x524288 32) (x2 : FVec Ideal S1x256 .f32) (x3 : FVec Ideal S1 .f32)

/-- Position k < 128 of edge p's joined row is entry k of the first end point's row. -/
theorem joined_first (p : Fin 524288) (k : Fin 128) :
    val_main_v18 (F := Ideal) x0 x1 (ix2 p ⟨k.val, by omega⟩)
      = x0 (ix2 (EdgeScore.rowOf (val_main_v7 (F := Ideal) x1) p) k) := by
  unfold val_main_v18
  refine (concatenate_pair_apply_left (t := S524288x256) (s₁ := S524288x128) (s₂ := S524288x128) (1 : Fin 2)
    (val_main_v8 (F := Ideal) x0 x1) (val_main_v17 (F := Ideal) x0 x1)
    concatenates_S524288x128_S524288x128_S524288x256_d1 (ix2 p ⟨k.val, by omega⟩ : S524288x256.Idx) rfl
    (ix2 p k : S524288x128.Idx) (fun b => ?_)).trans ?_
  · match b with
    | ⟨0, _⟩ => rfl
    | ⟨1, _⟩ => rfl
  · unfold val_main_v8
    exact Cert.Moe.gather_rows_apply (A := 16384) (C := 128) (M := 524288) (by decide)
      Facts₀.gather_S16384x128_S524288x1_S524288x128_1_0_n_n_0_1_1128_wf x0 (val_main_v7 (F := Ideal) x1) p k

/-- Position 128 + k of edge p's joined row is entry k of the second end point's row. -/
theorem joined_second (p : Fin 524288) (k : Fin 128) :
    val_main_v18 (F := Ideal) x0 x1 (ix2 p ⟨128 + k.val, by omega⟩)
      = x0 (ix2 (EdgeScore.rowOf (val_main_v16 (F := Ideal) x1) p) k) := by
  unfold val_main_v18
  refine (concatenate_pair_apply_right (t := S524288x256) (s₁ := S524288x128) (s₂ := S524288x128) (1 : Fin 2)
    (val_main_v8 (F := Ideal) x0 x1) (val_main_v17 (F := Ideal) x0 x1)
    concatenates_S524288x128_S524288x128_S524288x256_d1 (ix2 p ⟨128 + k.val, by omega⟩ : S524288x256.Idx) rfl rfl
    (ix2 p k : S524288x128.Idx) (fun b hb => ?_) ?_).trans ?_
  · match b with
    | ⟨0, _⟩ => rfl
    | ⟨1, _⟩ => exact absurd rfl hb
  · show k.val + 128 = 128 + k.val
    omega
  · unfold val_main_v17
    exact Cert.Moe.gather_rows_apply (A := 16384) (C := 128) (M := 524288) (by decide)
      Facts₀.gather_S16384x128_S524288x1_S524288x128_1_0_n_n_0_1_1128_wf x0 (val_main_v16 (F := Ideal) x1) p k

/-- The reference's flattened per-edge vector at edge p is the edge's score at the rows its index columns name. -/
theorem edge_apply (p : Fin 524288) :
    val_main_v24 (F := Ideal) x0 x1 x2 x3 (ix1 p)
      = EdgeScore.edge x0 x2 (x3 (ix1 0)) (EdgeScore.rowOf (val_main_v7 (F := Ideal) x1) p)
          (EdgeScore.rowOf (val_main_v16 (F := Ideal) x1) p) := by
  rw [val_main_v24_apply, val_main_v23_apply, val_main_v20_apply, val_main_v22_apply, val_main_v21_apply]
  unfold EdgeScore.edge
  refine congrArg₂ (fun a b : EReal => a + b) ?_ ?_
  · rw [EdgeScore.sum_halves]
    refine congrArg₂ (fun a b : EReal => a + b) (Finset.sum_congr rfl fun k _ => ?_) (Finset.sum_congr rfl fun k _ => ?_)
    · rw [val_main_v19_apply]
      refine congrArg₂ (fun a b : EReal => a * b) ?_ ?_
      · refine Eq.trans (congrArg (val_main_v18 (F := Ideal) x0 x1) ?_) (joined_first x0 x1 p k)
        funext a; apply Fin.ext
        match a with
        | ⟨0, _⟩ => show p.val / 1 = p.val; omega
        | ⟨1, _⟩ => rfl
      · refine congrArg x2 ?_
        funext a; apply Fin.ext
        match a with
        | ⟨0, _⟩ => rfl
        | ⟨1, _⟩ => rfl
    · rw [val_main_v19_apply]
      refine congrArg₂ (fun a b : EReal => a * b) ?_ ?_
      · refine Eq.trans (congrArg (val_main_v18 (F := Ideal) x0 x1) ?_) (joined_second x0 x1 p k)
        funext a; apply Fin.ext
        match a with
        | ⟨0, _⟩ => show p.val / 1 = p.val; omega
        | ⟨1, _⟩ => rfl
      · refine congrArg x2 ?_
        funext a; apply Fin.ext
        match a with
        | ⟨0, _⟩ => rfl
        | ⟨1, _⟩ => rfl
  · refine congrArg x3 ?_
    funext a; apply Fin.ext
    match a with
    | ⟨0, _⟩ => rfl

end Cert.ReferenceIdeal.EdgeRead

end
-- ==== Proof.Bridge.lean ====
/-
  The kernel's adjacency matrix is the reference's.

  Both programs add every edge's value into the zero matrix at (first end point, second end point), with the same
  index words wrapped the same way: the two differ only in how an edge's value is computed. The kernel reads two
  precomputed node scores, the reference multiplies the joined row of the two end points' rows by the whole weight
  row; at every edge both are the edge's score at the same two rows of the node table (`EdgeScore.edge`), the sum over
  256 positions being the sum of its two halves. Nothing is assumed finite.
-/
import proofs.«144400_j29703993819993_2_alg».proof.Proof.KernelEdge
import proofs.«144400_j29703993819993_2_alg».proof.Proof.KernelRun
import proofs.«144400_j29703993819993_2_alg».proof.Proof.ReferenceEdge

noncomputable section

namespace Cert.Bridge

open Idealize.ShloMosaic Idealize.ShloMosaic.ValueIdx
open Cert.KernelIdeal.NodeScores Cert.KernelIdeal.Tail Cert.KernelIdeal.Run

variable (x0 : FVec Ideal Cert.KernelIdeal.S16384x128 .f32) (x1 : IVec Cert.KernelIdeal.S2x524288 32)
  (x2 : FVec Ideal Cert.KernelIdeal.S1x256 .f32) (x3 : FVec Ideal Cert.KernelIdeal.S1 .f32)

/-- The two programs build the first index column by the same operations of the index array. -/
theorem column0_eq : column (ends0 x1) = Cert.ReferenceIdeal.Read.val_main_v7 (F := Ideal) x1 := rfl

/-- And the second. -/
theorem column1_eq : column (ends1 x1) = Cert.ReferenceIdeal.Read.val_main_v16 (F := Ideal) x1 := rfl

/-- The two programs' per-edge vectors are equal: at every edge both are the edge's score at the same two rows. -/
theorem edges_eq :
    edgeValues (scores x0 (stacked x2)) (column (ends0 x1)) (column (ends1 x1)) x3
      = Cert.ReferenceIdeal.Read.val_main_v24 (F := Ideal) x0 x1 x2 x3 := by
  funext e
  obtain ⟨p, rfl⟩ : ∃ p : Fin 524288, e = ix1 p := ⟨e 0, eq_ix1 e⟩
  unfold stacked
  refine (Cert.KernelIdeal.EdgeRead.edge_apply x0 x2 (column (ends0 x1)) (column (ends1 x1)) x3 p).trans ?_
  rw [column0_eq, column1_eq]
  exact (Cert.ReferenceIdeal.EdgeRead.edge_apply x0 x1 x2 x3 p).symm

/-- The kernel's adjacency matrix is the reference's last stage. -/
theorem adjacency_eq :
    adjacency (scores x0 (stacked x2)) (ends0 x1) (ends1 x1) x3
      = Cert.ReferenceIdeal.Read.val_main_v43 (F := Ideal) x0 x1 x2 x3 := by
  unfold adjacency Cert.ReferenceIdeal.Read.val_main_v43
  rw [edges_eq]
  rfl

end Cert.Bridge

end
-- ==== Proof.lean ====
/- The five claims of this certificate.

   The kernel computes, once per node, the node's score against each half of the weight row (a [16384, 128] by
   [2, 128] product in four row blocks), reads the two scores of every edge's end points, adds the bias, and adds the
   edge's value into the zero adjacency matrix. The reference gathers the two end points' rows, joins them into one row
   of 256, multiplies by the whole weight row, adds the bias, and adds into the zero matrix at the same place. On the
   extended reals the two values of an edge are one sum regrouped, so the two matrices are equal for every input; the
   precondition is not used. The three frames are the generated frame runs (the reference's is its generated run with
   the result dropped), and the idealization rewrote nothing, so `preserves` is `True`. -/
import proofs.«144400_j29703993819993_2_alg».proof.Defs
import proofs.«144400_j29703993819993_2_alg».proof.Proof.Gen.Kernel
import proofs.«144400_j29703993819993_2_alg».proof.Proof.Gen.Kernel.Skeleton
import proofs.«144400_j29703993819993_2_alg».proof.Proof.Gen.Kernel.Launch
import proofs.«144400_j29703993819993_2_alg».proof.Proof.Gen.Kernel.Points
import proofs.«144400_j29703993819993_2_alg».proof.Proof.Gen.Kernel.Frame
import proofs.«144400_j29703993819993_2_alg».proof.Proof.Gen.KernelIdeal
import proofs.«144400_j29703993819993_2_alg».proof.Proof.Gen.KernelIdeal.Skeleton
import proofs.«144400_j29703993819993_2_alg».proof.Proof.Gen.KernelIdeal.Launch
import proofs.«144400_j29703993819993_2_alg».proof.Proof.Gen.KernelIdeal.Points
import proofs.«144400_j29703993819993_2_alg».proof.Proof.Gen.KernelIdeal.Frame
import proofs.«144400_j29703993819993_2_alg».proof.Proof.Gen.ReferenceIdeal
import proofs.«144400_j29703993819993_2_alg».proof.Proof.Gen.ReferenceIdeal.Run
import proofs.«144400_j29703993819993_2_alg».proof.Proof.Gen.ReferenceIdeal.Read
import proofs.«144400_j29703993819993_2_alg».proof.Proof.Gen.Pre_finite_inputs
import proofs.«144400_j29703993819993_2_alg».proof.Proof.Bridge
import Idealize.ShloMosaic.Adequacy
import Idealize.ShloMosaic.Init

noncomputable section

namespace Cert.Proof

open Idealize.ShloMosaic Idealize.SL.Sem Cert.Kernel

/-- The word-level kernel's frame: the generated frame run. -/
theorem frame_kernel : Cert.frame_Kernel := fun m ρ _ => Cert.Kernel.Gen.frame m ρ

/-- The idealized kernel's frame: the generated frame run. -/
theorem frame_kernelIdeal : Cert.frame_KernelIdeal := fun m ρ _ => Cert.KernelIdeal.Gen.frame m ρ

/-- The reference's frame: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the kernel's adjacency matrix of the launch
    contents: the kernel by its run, the reference by its run and the equality of the two matrices. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v43_eq _ _ _ _).trans (Cert.Bridge.adjacency_eq _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
